-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S_ : Shape := ⟨0, ![]⟩

class Facts : Prop where
  bcast_S_S1024x1x1x512 : S_.BroadcastsInDim S1024x1x1x512 (![] : Fin 0 → Fin S1024x1x1x512.rank)
  reducesTo_S1024x1x1x512_S_d0_1_2_3 : S1024x1x1x512.ReducesTo [0, 1, 2, 3] S_
  h_S_ : 0 < S_.numel
  bcast_S_S1x1x1x256 : S_.BroadcastsInDim S1x1x1x256 (![] : Fin 0 → Fin S1x1x1x256.rank)
  reducesTo_S1x1x1x256_S_d0_1_2_3 : S1x1x1x256.ReducesTo [0, 1, 2, 3] S_
  bcast_S_S1x1x1x256x512 : S_.BroadcastsInDim S1x1x1x256x512 (![] : Fin 0 → Fin S1x1x1x256x512.rank)
  reducesTo_S1x1x1x256x512_S_d0_1_2_3_4 : S1x1x1x256x512.ReducesTo [0, 1, 2, 3, 4] S_

variable [Facts]

def fn_part1 {F : FTy → Type} [FloatOps F] (main_v13 : IVec S_ 1) (main_v16 : IVec S1x1x1x256x512 1) : IVec S_ 1 :=
  let main_c_5 : IVec S_ 1 := constantI S_ 1 1#1
  let main_v17 : IVec S_ 1 := (fun x v => Host.reduce IntOp.andi x v reducesTo_S1x1x1x256x512_S_d0_1_2_3_4 h_S_) main_v16 main_c_5
  let main_v18 : IVec S_ 1 := andi main_v13 main_v17
  main_v18

def fn {F : FTy → Type} [FloatOps F] (main_arg0 : FVec F S1024x1x1x512 .f32) (main_arg1 : FVec F S1x1x1x256 .f32) (main_arg2 : FVec F S1x1x1x256x512 .f32) (main_arg3 : FVec F S1x1x1x256x512 .f32) : IVec S_ 1 :=
  let main_v0 : FVec F S1024x1x1x512 .f32 := Host.absf main_arg0
  let main_cst : FVec F S_ .f32 := constant S_ .f32 0x7F800000#32
  let main_v1 : FVec F S1024x1x1x512 .f32 := broadcastInDim S1024x1x1x512 ![] bcast_S_S1024x1x1x512 main_cst
  let main_v2 : IVec S1024x1x1x512 1 := cmpf .olt main_v0 main_v1
  let main_c : IVec S_ 1 := constantI S_ 1 1#1
  let main_v3 : IVec S_ 1 := (fun x v => Host.reduce IntOp.andi x v reducesTo_S1024x1x1x512_S_d0_1_2_3 h_S_) main_v2 main_c
  let main_v4 : FVec F S1x1x1x256 .f32 := Host.absf main_arg1
  let main_cst_0 : FVec F S_ .f32 := constant S_ .f32 0x7F800000#32
  let main_v5 : FVec F S1x1x1x256 .f32 := broadcastInDim S1x1x1x256 ![] bcast_S_S1x1x1x256 main_cst_0
  let main_v6 : IVec S1x1x1x256 1 := cmpf .olt main_v4 main_v5
  let main_c_1 : IVec S_ 1 := constantI S_ 1 1#1
  let main_v7 : IVec S_ 1 := (fun x v => Host.reduce IntOp.andi x v reducesTo_S1x1x1x256_S_d0_1_2_3 h_S_) main_v6 main_c_1
  let main_v8 : IVec S_ 1 := andi main_v3 main_v7
  let main_v9 : FVec F S1x1x1x256x512 .f32 := Host.absf main_arg2
  let main_cst_2 : FVec F S_ .f32 := constant S_ .f32 0x7F800000#32
  let main_v10 : FVec F S1x1x1x256x512 .f32 := broadcastInDim S1x1x1x256x512 ![] bcast_S_S1x1x1x256x512 main_cst_2
  let main_v11 : IVec S1x1x1x256x512 1 := cmpf .olt main_v9 main_v10
  let main_c_3 : IVec S_ 1 := constantI S_ 1 1#1
  let main_v12 : IVec S_ 1 := (fun x v => Host.reduce IntOp.andi x v reducesTo_S1x1x1x256x512_S_d0_1_2_3_4 h_S_) main_v11 main_c_3
  let main_v13 : IVec S_ 1 := andi main_v8 main_v12
  let main_v14 : FVec F S1x1x1x256x512 .f32 := Host.absf main_arg3
  let main_cst_4 : FVec F S_ .f32 := constant S_ .f32 0x7F800000#32
  let main_v15 : FVec F S1x1x1x256x512 .f32 := broadcastInDim S1x1x1x256x512 ![] bcast_S_S1x1x1x256x512 main_cst_4
  let main_v16 : IVec S1x1x1x256x512 1 := cmpf .olt main_v14 main_v15
  fn_part1 (F := F) main_v13 main_v16
-- ==== Kernel.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S1024x512 : Shape := ⟨2, ![1024, 512]⟩
abbrev S256x512 : Shape := ⟨2, ![256, 512]⟩
abbrev S1x256 : Shape := ⟨2, ![1, 256]⟩
abbrev S1024x256 : Shape := ⟨2, ![1024, 256]⟩
abbrev S128x512 : Shape := ⟨2, ![128, 512]⟩
abbrev S128x256 : Shape := ⟨2, ![128, 256]⟩
abbrev S1x512 : Shape := ⟨2, ![1, 512]⟩
abbrev S1 : Shape := ⟨1, ![1]⟩
abbrev S1x1 : Shape := ⟨2, ![1, 1]⟩
abbrev S1024x1x1x256 : Shape := ⟨4, ![1024, 1, 1, 256]⟩

abbrev nBuf : Space → Nat
  | .hbm => 10
  | .vmem => 7
  | .smem => 0
  | _ => 0

abbrev bufTy : (tb : Table) → Fin (tcTables nBuf tb) → BufTy
  | .hbm, ⟨0, _⟩ => ⟨S1024x1x1x512, .f32⟩
  | .hbm, ⟨1, _⟩ => ⟨S1x1x1x256, .f32⟩
  | .hbm, ⟨2, _⟩ => ⟨S1x1x1x256x512, .f32⟩
  | .hbm, ⟨3, _⟩ => ⟨S1x1x1x256x512, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S1x256, .f32⟩
  | .hbm, ⟨8, _⟩ => ⟨S1024x256, .f32⟩
  | .hbm, ⟨9, _⟩ => ⟨S1024x1x1x256, .f32⟩
  | .local _ .vmem, ⟨0, _⟩ => ⟨S128x512, .f32⟩
  | .local _ .vmem, ⟨1, _⟩ => ⟨S128x512, .f32⟩
  | .local _ .vmem, ⟨2, _⟩ => ⟨S256x512, .f32⟩
  | .local _ .vmem, ⟨3, _⟩ => ⟨S256x512, .f32⟩
  | .local _ .vmem, ⟨4, _⟩ => ⟨S1x256, .f32⟩
  | .local _ .vmem, ⟨5, _⟩ => ⟨S128x256, .f32⟩
  | .local _ .vmem, ⟨6, _⟩ => ⟨S128x256, .f32⟩
  | _, _ => ⟨S1024x1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1x1x512_S1024x512 : S1024x1x1x512.ShapeCasts S1024x512
  shapeCasts_S1x1x1x256x512_S256x512 : S1x1x1x256x512.ShapeCasts S256x512
  shapeCasts_S1x1x1x256_S1x256 : S1x1x1x256.ShapeCasts S1x256
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  bitsLt_bf16_f32 : FTy.bits .bf16 < FTy.bits .f32
  broadcasts_S1x256_S128x256 : S1x256.Broadcasts S128x256
  inb_S128x256_S128x256_0_0 : ∀ a, (![0, 0] : Fin 2 → Nat) a + S128x256.size a ≤ S128x256.size a
  h_S128x256 : 0 < S128x256.numel
  shapeCasts_S1024x256_S1024x1x1x256 : S1024x256.ShapeCasts S1024x1x1x256
  dot_S1x512_S256x512_S1x256_1_1_0_0_n_n_wf : DotDims.WF S1x512 S256x512 S1x256 [1] [1] [0] [0] [] []
  dot_S128x512_S256x512_S128x256_1_1_0_0_n_n_wf : DotDims.WF S128x512 S256x512 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S1024x256.size a
  hwx0_4 : ∀ i : grid0.Coords, EltTy.bits .f32 = 32 ∨ (Rect.block (s := S1024x256) S128x256.size (cc0_transform_4 i) (hinb0_4 i)).WholeWords (EltTy.packing .f32)

variable [Facts₀]

def dot_S1x512_S256x512_S1x256_1_1_0_0_n_n : DotDims S1x512 S256x512 S1x256 where
  lhsContracting := [1]
  rhsContracting := [1]
  lhsNonContracting := [0]
  rhsNonContracting := [0]
  lhsBatch := []
  rhsBatch := []
  wf := dot_S1x512_S256x512_S1x256_1_1_0_0_n_n_wf
def dot_S128x512_S256x512_S128x256_1_1_0_0_n_n : DotDims S128x512 S256x512 S128x256 where
  lhsContracting := [1]
  rhsContracting := [1]
  lhsNonContracting := [0]
  rhsNonContracting := [0]
  lhsBatch := []
  rhsBatch := []
  wf := dot_S128x512_S256x512_S128x256_1_1_0_0_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1x1x512 : Shape := ⟨4, ![1024, 1, 1, 512]⟩
abbrev S1x1x1x256 : Shape := ⟨4, ![1, 1, 1, 256]⟩
abbrev S1x1x1x256x512 : Shape := ⟨5, ![1, 1, 1, 256, 512]⟩
abbrev S1024x1x1x1x512 : Shape := ⟨5, ![1024, 1, 1, 1, 512]⟩
abbrev S1024x1x1x256x512 : Shape := ⟨5, ![1024, 1, 1, 256, 512]⟩
abbrev S_ : Shape := ⟨0, ![]⟩
abbrev S256 : Shape := ⟨1, ![256]⟩
abbrev S1 : Shape := ⟨1, ![1]⟩
abbrev S1024x1x1x256 : Shape := ⟨4, ![1024, 1, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S1024x1x1x512, .f32⟩
  | .hbm, ⟨1, _⟩ => ⟨S1x1x1x256, .f32⟩
  | .hbm, ⟨2, _⟩ => ⟨S1x1x1x256x512, .f32⟩
  | .hbm, ⟨3, _⟩ => ⟨S1x1x1x256x512, .f32⟩
  | .hbm, ⟨4, _⟩ => ⟨S1024x1x1x1x512, .f32⟩
  | .hbm, ⟨5, _⟩ => ⟨S1024x1x1x256x512, .f32⟩
  | .hbm, ⟨6, _⟩ => ⟨S1024x1x1x256x512, .f32⟩
  | .hbm, ⟨7, _⟩ => ⟨S1024x1x1x256x512, .f32⟩
  | .hbm, ⟨8, _⟩ => ⟨S1x1x1x256x512, .f32⟩
  | .hbm, ⟨9, _⟩ => ⟨S_, .f32⟩
  | .hbm, ⟨10, _⟩ => ⟨S1x1x1x256, .f32⟩
  | .hbm, ⟨11, _⟩ => ⟨S_, .f32⟩
  | .hbm, ⟨12, _⟩ => ⟨S1x1x1x256, .f32⟩
  | .hbm, ⟨13, _⟩ => ⟨S1x1x1x256, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S256, .f32⟩
  | .hbm, ⟨28, _⟩ => ⟨S256, .f32⟩
  | .hbm, ⟨29, _⟩ => ⟨S1x1x1x256, .f32⟩
  | .hbm, ⟨30, _⟩ => ⟨S1024x1x1x256x512, .f32⟩
  | .hbm, ⟨31, _⟩ => ⟨S1x1x1x256x512, .f32⟩
  | .hbm, ⟨32, _⟩ => ⟨S1024x1x1x256x512, .f32⟩
  | .hbm, ⟨33, _⟩ => ⟨S1024x1x1x256x512, .f32⟩
  | .hbm, ⟨34, _⟩ => ⟨S_, .f32⟩
  | .hbm, ⟨35, _⟩ => ⟨S1024x1x1x256, .f32⟩
  | .hbm, ⟨36, _⟩ => ⟨S_, .f32⟩
  | .hbm, ⟨37, _⟩ => ⟨S1024x1x1x256, .f32⟩
  | .hbm, ⟨38, _⟩ => ⟨S1024x1x1x256, .f32⟩
  | .hbm, ⟨39, _⟩ => ⟨S1024x1x1x256, .f32⟩
  | .hbm, ⟨40, _⟩ => ⟨S1024x1x1x256, .f32⟩
  | .hbm, ⟨41, _⟩ => ⟨S1024x1x1x256, .f32⟩
  | .hbm, ⟨42, _⟩ => ⟨S1024x1x1x256, .f32⟩
  | _, _ => ⟨S1024x1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S1024x1x1x512_S1024x1x1x1x512_0_1_2_4 : S1024x1x1x512.BroadcastsInDim S1024x1x1x1x512 (![0, 1, 2, 4] : Fin 4 → Fin S1024x1x1x1x512.rank)
  bcast_S1024x1x1x1x512_S1024x1x1x256x512_0_1_2_3_4 : S1024x1x1x1x512.BroadcastsInDim S1024x1x1x256x512 (![0, 1, 2, 3, 4] : Fin 5 → Fin S1024x1x1x256x512.rank)
  bcast_S1x1x1x256x512_S1024x1x1x256x512_0_1_2_3_4 : S1x1x1x256x512.BroadcastsInDim S1024x1x1x256x512 (![0, 1, 2, 3, 4] : Fin 5 → Fin S1024x1x1x256x512.rank)
  reducesTo_S1x1x1x256x512_S1x1x1x256_d4 : S1x1x1x256x512.ReducesTo [4] S1x1x1x256
  h_S_ : 0 < S_.numel
  bcast_S_S1x1x1x256 : S_.BroadcastsInDim S1x1x1x256 (![] : Fin 0 → Fin S1x1x1x256.rank)
  shapeCasts_S1x1x1x256_S256 : S1x1x1x256.ShapeCasts S256
  reducesTo_S256_S_d0 : S256.ReducesTo [0] S_
  bcast_S_S1 : S_.BroadcastsInDim S1 (![] : Fin 0 → Fin S1.rank)
  bcast_S1_S256_0 : S1.BroadcastsInDim S256 (![0] : Fin 1 → Fin S256.rank)
  shapeCasts_S256_S1x1x1x256 : S256.ShapeCasts S1x1x1x256
  reducesTo_S1024x1x1x256x512_S1024x1x1x256_d4 : S1024x1x1x256x512.ReducesTo [4] S1024x1x1x256
  bcast_S_S1024x1x1x256 : S_.BroadcastsInDim S1024x1x1x256 (![] : Fin 0 → Fin S1024x1x1x256.rank)
  bcast_S1x1x1x256_S1024x1x1x256_0_1_2_3 : S1x1x1x256.BroadcastsInDim S1024x1x1x256 (![0, 1, 2, 3] : Fin 4 → Fin S1024x1x1x256.rank)

variable [Facts₀]

class Facts : Prop extends Facts₀ where

variable [Facts]
-- ==== Proof.MatmulRows.lean ====
/-
  The two matrix products of the kernel body, each read at an entry as a plain sum over the 512 channels. Both
  contract the SECOND axis of both operands (a product with the transpose): entry `(r, k)` pairs row `r` of the left
  operand with row `k` of the right. One product has 128 rows on the left (a block of samples), the other a single
  row (the row of ones that turns the product into a sum over the channels).
-/
import proofs.«105026_j75874892251650_2_alg».proof.Proof.Gen.KernelIdeal
import Idealize.ShloMosaic.Lib.ValueIdx
import Idealize.ShloMosaic.PureOps.Ideal.Laws

noncomputable section

open scoped BigOperators

namespace Cert.KernelIdeal.KerValue

open Cert.KernelIdeal Idealize.ShloMosaic Idealize.ShloMosaic.ValueIdx

/-! ### The contraction `S128x512 × S256x512 → S128x256`: rows of the left operand against rows of the right -/

theorem lhs_blk_0 (i : S128x256.Idx) (q : dot_S128x512_S256x512_S128x256_1_1_0_0_n_n.contr.Idx) :
    (dot_S128x512_S256x512_S128x256_1_1_0_0_n_n.lhsIdx i q 0).val = (i 0).val := by
  unfold DotDims.lhsIdx
  rw [dif_neg (show ¬(0 : Fin S128x512.rank) ∈ dot_S128x512_S256x512_S128x256_1_1_0_0_n_n.lhsBatch by decide), dif_pos (show (0 : Fin S128x512.rank) ∈ dot_S128x512_S256x512_S128x256_1_1_0_0_n_n.lhsNonContracting by decide)]
  rfl
theorem lhs_blk_1 (i : S128x256.Idx) (q : dot_S128x512_S256x512_S128x256_1_1_0_0_n_n.contr.Idx) :
    (dot_S128x512_S256x512_S128x256_1_1_0_0_n_n.lhsIdx i q 1).val = (q ⟨0, by decide⟩).val :=
  dot_S128x512_S256x512_S128x256_1_1_0_0_n_n.lhsIdx_val_of_single rfl i q
theorem rhs_blk_0 (i : S128x256.Idx) (q : dot_S128x512_S256x512_S128x256_1_1_0_0_n_n.contr.Idx) :
    (dot_S128x512_S256x512_S128x256_1_1_0_0_n_n.rhsIdx i q 0).val = (i 1).val := by
  unfold DotDims.rhsIdx
  rw [dif_neg (show ¬(0 : Fin S256x512.rank) ∈ dot_S128x512_S256x512_S128x256_1_1_0_0_n_n.rhsBatch by decide), dif_pos (show (0 : Fin S256x512.rank) ∈ dot_S128x512_S256x512_S128x256_1_1_0_0_n_n.rhsNonContracting by decide)]
  rfl
theorem rhs_blk_1 (i : S128x256.Idx) (q : dot_S128x512_S256x512_S128x256_1_1_0_0_n_n.contr.Idx) :
    (dot_S128x512_S256x512_S128x256_1_1_0_0_n_n.rhsIdx i q 1).val = (q ⟨0, by decide⟩).val :=
  dot_S128x512_S256x512_S128x256_1_1_0_0_n_n.rhsIdx_val_of_single rfl i q

/-- Into the zero accumulator, entry `(r, k)` of the product is the sum over the channels `c` of the left operand at
    `(r, c)` times the right operand at `(k, c)`: both operands are contracted along their rows. -/
theorem matmul_blk_apply {φ₁ φ₂ : FTy} (prec : Option ContractPrecision) (lhs : FVec Ideal S128x512 φ₁) (rhs : FVec Ideal S256x512 φ₂)
    (r : Fin 128) (k : Fin 256) :
    matmul dot_S128x512_S256x512_S128x256_1_1_0_0_n_n prec lhs rhs (constant S128x256 .f32 0x00000000#32) (ix2 r k)
      = ∑ c : Fin 512, lhs (ix2 r c) * rhs (ix2 k c) := by
  simp only [matmul]
  rw [Ideal.matmul_constant_zero_apply, ← Equiv.sum_comp (contrEquiv1 dot_S128x512_S256x512_S128x256_1_1_0_0_n_n 512 rfl rfl).symm]
  refine Finset.sum_congr rfl fun c _ => ?_
  have hk := contrEquiv1_symm_val dot_S128x512_S256x512_S128x256_1_1_0_0_n_n 512 rfl rfl c
  have el : dot_S128x512_S256x512_S128x256_1_1_0_0_n_n.lhsIdx (ix2 r k) ((contrEquiv1 dot_S128x512_S256x512_S128x256_1_1_0_0_n_n 512 rfl rfl).symm c) = ix2 r c := funext fun a => Fin.ext (by
    match a with
    | ⟨0, _⟩ => exact lhs_blk_0 _ _
    | ⟨1, _⟩ => exact (lhs_blk_1 _ _).trans hk)
  have er : dot_S128x512_S256x512_S128x256_1_1_0_0_n_n.rhsIdx (ix2 r k) ((contrEquiv1 dot_S128x512_S256x512_S128x256_1_1_0_0_n_n 512 rfl rfl).symm c) = ix2 k c := funext fun a => Fin.ext (by
    match a with
    | ⟨0, _⟩ => exact rhs_blk_0 _ _
    | ⟨1, _⟩ => exact (rhs_blk_1 _ _).trans hk)
  rw [el, er]

/-! ### The contraction `S1x512 × S256x512 → S1x256`: rows of the left operand against rows of the right -/

theorem lhs_row_0 (i : S1x256.Idx) (q : dot_S1x512_S256x512_S1x256_1_1_0_0_n_n.contr.Idx) :
    (dot_S1x512_S256x512_S1x256_1_1_0_0_n_n.lhsIdx i q 0).val = (i 0).val := by
  unfold DotDims.lhsIdx
  rw [dif_neg (show ¬(0 : Fin S1x512.rank) ∈ dot_S1x512_S256x512_S1x256_1_1_0_0_n_n.lhsBatch by decide), dif_pos (show (0 : Fin S1x512.rank) ∈ dot_S1x512_S256x512_S1x256_1_1_0_0_n_n.lhsNonContracting by decide)]
  rfl
theorem lhs_row_1 (i : S1x256.Idx) (q : dot_S1x512_S256x512_S1x256_1_1_0_0_n_n.contr.Idx) :
    (dot_S1x512_S256x512_S1x256_1_1_0_0_n_n.lhsIdx i q 1).val = (q ⟨0, by decide⟩).val :=
  dot_S1x512_S256x512_S1x256_1_1_0_0_n_n.lhsIdx_val_of_single rfl i q
theorem rhs_row_0 (i : S1x256.Idx) (q : dot_S1x512_S256x512_S1x256_1_1_0_0_n_n.contr.Idx) :
    (dot_S1x512_S256x512_S1x256_1_1_0_0_n_n.rhsIdx i q 0).val = (i 1).val := by
  unfold DotDims.rhsIdx
  rw [dif_neg (show ¬(0 : Fin S256x512.rank) ∈ dot_S1x512_S256x512_S1x256_1_1_0_0_n_n.rhsBatch by decide), dif_pos (show (0 : Fin S256x512.rank) ∈ dot_S1x512_S256x512_S1x256_1_1_0_0_n_n.rhsNonContracting by decide)]
  rfl
theorem rhs_row_1 (i : S1x256.Idx) (q : dot_S1x512_S256x512_S1x256_1_1_0_0_n_n.contr.Idx) :
    (dot_S1x512_S256x512_S1x256_1_1_0_0_n_n.rhsIdx i q 1).val = (q ⟨0, by decide⟩).val :=
  dot_S1x512_S256x512_S1x256_1_1_0_0_n_n.rhsIdx_val_of_single rfl i q

/-- Into the zero accumulator, entry `(r, k)` of the product is the sum over the channels `c` of the left operand at
    `(r, c)` times the right operand at `(k, c)`: both operands are contracted along their rows. -/
theorem matmul_row_apply {φ₁ φ₂ : FTy} (prec : Option ContractPrecision) (lhs : FVec Ideal S1x512 φ₁) (rhs : FVec Ideal S256x512 φ₂)
    (r : Fin 1) (k : Fin 256) :
    matmul dot_S1x512_S256x512_S1x256_1_1_0_0_n_n prec lhs rhs (constant S1x256 .f32 0x00000000#32) (ix2 r k)
      = ∑ c : Fin 512, lhs (ix2 r c) * rhs (ix2 k c) := by
  simp only [matmul]
  rw [Ideal.matmul_constant_zero_apply, ← Equiv.sum_comp (contrEquiv1 dot_S1x512_S256x512_S1x256_1_1_0_0_n_n 512 rfl rfl).symm]
  refine Finset.sum_congr rfl fun c _ => ?_
  have hk := contrEquiv1_symm_val dot_S1x512_S256x512_S1x256_1_1_0_0_n_n 512 rfl rfl c
  have el : dot_S1x512_S256x512_S1x256_1_1_0_0_n_n.lhsIdx (ix2 r k) ((contrEquiv1 dot_S1x512_S256x512_S1x256_1_1_0_0_n_n 512 rfl rfl).symm c) = ix2 r c := funext fun a => Fin.ext (by
    match a with
    | ⟨0, _⟩ => exact lhs_row_0 _ _
    | ⟨1, _⟩ => exact (lhs_row_1 _ _).trans hk)
  have er : dot_S1x512_S256x512_S1x256_1_1_0_0_n_n.rhsIdx (ix2 r k) ((contrEquiv1 dot_S1x512_S256x512_S1x256_1_1_0_0_n_n 512 rfl rfl).symm c) = ix2 k c := funext fun a => Fin.ext (by
    match a with
    | ⟨0, _⟩ => exact rhs_row_0 _ _
    | ⟨1, _⟩ => exact (rhs_row_1 _ _).trans hk)
  rw [el, er]

end Cert.KernelIdeal.KerValue

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.BodyValue.lean ====
/-
  What the kernel body computes, read at one entry. The body works on a block of 128 samples `x0`, on the means `x1`
  and the precisions `x2` of all 256 components, and on the row of logits `x3`.
  • The bias row at component `k`: the half factor times the sum over the channels of `μ² s²`, plus the sum of the
    logarithms of the precisions, plus the normalisation constant, plus the logit less the log-sum-exp of the logits
    (the largest logit plus the logarithm of the sum of the exponentials of the logits less the largest).
  • The stored block at `(r, k)`: the half factor times the sum of the two products over the channels — `x² s²`
    and `x (-2 μ s²)` — plus the bias row at `k`.
-/
import proofs.«105026_j75874892251650_2_alg».proof.Proof.Gen.KernelIdeal.Skeleton
import proofs.«105026_j75874892251650_2_alg».proof.Proof.MatmulRows
import proofs.«105026_j75874892251650_2_alg».proof.Proof.LibKeepdims
import proofs.«105026_j75874892251650_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerValue

open Cert.KernelIdeal Cert.KernelIdeal.Gen Idealize.ShloMosaic Idealize.ShloMosaic.ValueIdx

theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-- The largest of the 256 logits of the row, folded from the accumulator's word. -/
theorem row_max (x3 : FVec Ideal S1x256 .f32) (hφ : FKind.Formats .f32)
    (hacc : (0xFF800000#32 : BitVec 32) = 0xFF800000#32) (u : Fin 1) :
    multiReduction .maximumf [1] S1 x3 0xFF800000#32 reduces_S1x256_S1 hφ hacc (ix1 u)
      = (Finset.univ : Finset (Fin 256)).fold max (Ideal.ofBits .f32 0xFF800000#32) (fun j => x3 (ix2 u j)) :=
  multiReduction_maximumf_axis1_apply x3 0xFF800000#32 reduces_S1x256_S1 hφ hacc u

/-- The sum of the 256 entries of a row, from the zero word. -/
theorem row_sum (w : FVec Ideal S1x256 .f32) (hφ : FKind.Formats .f32)
    (hacc : (0x00000000#32 : BitVec 32) = 0x00000000#32) (u : Fin 1) :
    multiReduction .add [1] S1 w 0x00000000#32 reduces_S1x256_S1 hφ hacc (ix1 u) = ∑ j : Fin 256, w (ix2 u j) :=
  multiReduction_add_axis1_apply w reduces_S1x256_S1 hφ hacc u

/-- The bias of component `k`, from the means `Mu` and precisions `Sg` of that component over the channels and the
    logits `P`: the half factor times the sum of `μ² s²` (each term taken once: the row of ones), plus the sum of the
    logarithms of the precisions, plus the normalisation constant, plus the logit less the log-sum-exp of the logits. -/
def biasEntry (Mu Sg : Fin 512 → EReal) (P : Fin 256 → EReal) (k : Fin 256) : EReal :=
  ((Ideal.ofBits .f32 0xBF000000#32 * (∑ c, Ideal.ofBits .f32 0x3F800000#32 * ((Mu c * Mu c) * (Sg c * Sg c)))
      + ∑ c, Ideal.ofBits .f32 0x3F800000#32 * Ideal.log (Sg c)) + Ideal.ofBits .f32 0xC3EB3F8E#32)
    + (P k - ((Finset.univ : Finset (Fin 256)).fold max (Ideal.ofBits .f32 0xFF800000#32) P
        + Ideal.log (∑ j, Ideal.exp (P j - (Finset.univ : Finset (Fin 256)).fold max (Ideal.ofBits .f32 0xFF800000#32) P))))

/-- The body's value for a sample with channels `X` at component `k`: the half factor times the sum of the two
    products over the channels, `x² s²` and `x (-2 μ s²)`, plus the bias of the component. -/
def entry (X Mu Sg : Fin 512 → EReal) (P : Fin 256 → EReal) (k : Fin 256) : EReal :=
  Ideal.ofBits .f32 0xBF000000#32 * ((∑ c, (X c * X c) * (Sg c * Sg c))
      + ∑ c, X c * ((Ideal.ofBits .f32 0xC0000000#32 * Mu c) * (Sg c * Sg c)))
    + biasEntry Mu Sg P k

/-- THE BIAS ROW AT A COMPONENT. -/
theorem bias_at (x1 x2 : Vec Ideal S256x512 .f32) (x3 : Vec Ideal S1x256 .f32) (u : Fin 1) (k : Fin 256) :
    k0_pay6 (F := Ideal) x1 x2 x3 (ix2 u k)
      = biasEntry (fun c => x1 (ix2 k c)) (fun c => x2 (ix2 k c)) (fun j => x3 (ix2 u j)) k := by
  simp only [k0_pay6, k0_pay3, k0_pay4, k0_pay5, addf_apply, subf_apply, mulf_apply, broadcast_apply, matmul_row_apply,
    shapeCast_self, broadcastTo_a1_ab_apply, shapeCast_a_a1_apply, log_apply, exp_apply]
  rw [row_sum]
  simp only [exp_apply, subf_apply, broadcastTo_a1_ab_apply, shapeCast_a_a1_apply]
  rw [row_max]
  rfl

/-- THE STORED BLOCK AT AN ENTRY: row `r` of the block of samples against component `k`. -/
theorem body_at (x0 : Vec Ideal S128x512 .f32) (x1 x2 : Vec Ideal S256x512 .f32) (x3 : Vec Ideal S1x256 .f32)
    (r : Fin 128) (k : Fin 256) :
    k0_pay1 (F := Ideal) (k0_pay6 x1 x2 x3) (k0_pay7 x0) (k0_pay8 x1 x2) (k0_pay9 x0 x2) (constant S128x256 .f32 0x00000000#32) (ix2 r k)
      = entry (fun c => x0 (ix2 r c)) (fun c => x1 (ix2 k c)) (fun c => x2 (ix2 k c)) (fun j => x3 (ix2 (0 : Fin 1) j)) k := by
  simp only [k0_pay1, k0_pay7, k0_pay8, k0_pay9, k0_pay2, k0_pay3, k0_pay4, k0_pay5, addf_apply, mulf_apply, broadcast_apply,
    matmul_blk_apply, truncf_apply, shapeCast_self, broadcastTo_1b_ab_apply, bias_at]
  rfl

end Cert.KernelIdeal.KerValue

end
-- ==== Proof.BlockToArray.lean ====
/-
  From the blocks to the array. The grid has eight points; point `t` reads rows `128 t … 128 t + 127` of the samples and
  the whole of the three component arrays, and writes rows `128 t … 128 t + 127` of the result. So what point `t` writes
  back is block `t` of ONE function of the four arrays as the region finds them — entry `(b, k)` is the body's value for
  sample `b` at component `k` — and, the eight blocks tiling the 1024 rows, the result array ends holding that function.
-/
import proofs.«105026_j75874892251650_2_alg».proof.Proof.Gen.KernelIdeal.Frame
import proofs.«105026_j75874892251650_2_alg».proof.Proof.BodyValue
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The result at sample `b` and component `k`, from the four arrays the region stages. -/
def arrAt (a0 : S1024x512.Idx → EReal) (a1 a2 : S256x512.Idx → EReal) (a3 : S1x256.Idx → EReal) (b : Fin 1024) (k : Fin 256) : EReal :=
  entry (fun c => a0 (ix2 b c)) (fun c => a1 (ix2 k c)) (fun c => a2 (ix2 k c)) (fun j => a3 (ix2 (0 : Fin 1) j)) k

/-- The whole result array as one function of the four arrays. -/
def arr (a0 : S1024x512.Idx → EReal) (a1 a2 : S256x512.Idx → EReal) (a3 : S1x256.Idx → EReal) : S1024x256.Idx → EReal :=
  fun i => arrAt a0 a1 a2 a3 (i 0) (i 1)

/-- The printed index maps over the grid: the samples' window and the result's window are at block `t` of the rows, the
    three component windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem entry_congr {X X' Mu Mu' Sg Sg' : Fin 512 → EReal} {P P' : Fin 256 → EReal} {k k' : Fin 256}
    (hX : X = X') (hMu : Mu = Mu') (hSg : Sg = Sg') (hP : P = P') (hk : k = k') : entry X Mu Sg P k = entry X' Mu' Sg' P' k' := by
  subst hX hMu hSg hP hk; rfl

/-- WHAT POINT `t` WRITES BACK is block `t` of the one function of the four arrays as the region finds them. -/
theorem flushed_eq (c : Dev nD) (t : Fin cfg0.N) :
    (dats m 0 c).flushed 4 t = ((cfg0.win 4).blk t).view.read (Elt Ideal)
      (arr (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S128x512) hz, View.ld_unit_zero (S := S256x512) hz, View.ld_unit_zero (S := S1x256) hz]
  funext j
  obtain ⟨r, k, rfl⟩ : ∃ (r : Fin 128) (k : Fin 256), j = ix2 r k := ⟨j 0, j 1, eq_ix2 j⟩
  refine (body_at (iblk m c 0 t) (iblk m c 1 t) (iblk m c 2 t) (iblk m c 3 t) r k).trans ?_
  rw [View.read_apply]
  obtain ⟨e00, e01, e10, e11, e20, e21, e30, e31, e40, e41⟩ := idx_facts t
  have hr : r.val < 128 := r.isLt
  have hk : k.val < 256 := k.isLt
  show _ = arrAt _ _ _ _ ((((cfg0.win 4).blk t).view.emb (ix2 r k)) 0) ((((cfg0.win 4).blk t).view.emb (ix2 r k)) 1)
  unfold arrAt
  refine entry_congr (funext fun c' => ?_) (funext fun c' => ?_) (funext fun c' => ?_) (funext fun j => ?_) (Fin.ext ?_)
  · show V m c main_v0 (((cfg0.win 0).blk t).view.emb (ix2 r c')) = V m c main_v0 _
    refine congrArg (V m c main_v0) (funext fun a => Fin.ext ?_)
    have hc : c'.val < 512 := c'.isLt
    match a with
    | ⟨0, _⟩ => show win0_0.index t (0 : Fin 2) * 128 + 1 * r.val = win0_4.index t (0 : Fin 2) * 128 + 1 * r.val; omega
    | ⟨1, _⟩ => show win0_0.index t (1 : Fin 2) * 512 + 1 * c'.val = c'.val; omega
  · show V m c main_v1 (((cfg0.win 1).blk t).view.emb (ix2 k c')) = V m c main_v1 _
    refine congrArg (V m c main_v1) (funext fun a => Fin.ext ?_)
    have hc : c'.val < 512 := c'.isLt
    match a with
    | ⟨0, _⟩ => show win0_1.index t (0 : Fin 2) * 256 + 1 * k.val = win0_4.index t (1 : Fin 2) * 256 + 1 * k.val; omega
    | ⟨1, _⟩ => show win0_1.index t (1 : Fin 2) * 512 + 1 * c'.val = c'.val; omega
  · show V m c main_v2 (((cfg0.win 2).blk t).view.emb (ix2 k c')) = V m c main_v2 _
    refine congrArg (V m c main_v2) (funext fun a => Fin.ext ?_)
    have hc : c'.val < 512 := c'.isLt
    match a with
    | ⟨0, _⟩ => show win0_2.index t (0 : Fin 2) * 256 + 1 * k.val = win0_4.index t (1 : Fin 2) * 256 + 1 * k.val; omega
    | ⟨1, _⟩ => show win0_2.index t (1 : Fin 2) * 512 + 1 * c'.val = c'.val; omega
  · show V m c main_v3 (((cfg0.win 3).blk t).view.emb (ix2 (0 : Fin 1) j)) = V m c main_v3 _
    refine congrArg (V m c main_v3) (funext fun a => Fin.ext ?_)
    have hj : j.val < 256 := j.isLt
    match a with
    | ⟨0, _⟩ => show win0_3.index t (0 : Fin 2) * 1 + 1 * 0 = 0; omega
    | ⟨1, _⟩ => show win0_3.index t (1 : Fin 2) * 256 + 1 * j.val = j.val; omega
  · show k.val = win0_4.index t (1 : Fin 2) * 256 + 1 * k.val
    omega

/-- An index of the result array is in point `t`'s block iff each coordinate is in the block's range on its axis. -/
theorem mem_blk (t : Fin cfg0.N) (i : S1024x256.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v4).slice (win0_4.rect t)).set ↔ _
  rw [View.set_slice_whole, Rect.mem_set_unit]
  exact Iff.rfl

/-- Every block of rows is some point's. -/
theorem idx_onto : ∀ q : Fin 8, ∃ t : Fin cfg0.N, win0_4.index t = ![q.val, 0] :=
  (by decide +kernel : ∀ q : Fin 8, ∃ t : Fin grid0.N, win0_4.index t = ![q.val, 0])

/-- THE COVER: row `b` of the result lies in the block of point `b / 128`, and every point writes its block back. -/
theorem cover (i : S1024x256.Idx) : ∃ t : Fin cfg0.N, (cfg0.win 4).flush t = true ∧ i ∈ ((cfg0.win 4).blk t).view.set := by
  have hi0 : (i 0).val < 1024 := (i 0).isLt
  have hi1 : (i 1).val < 256 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 256 ≤ (i 1).val ∧ (i 1).val < win0_4.index t (1 : Fin 2) * 256 + 256; omega

/-- THE RESULT ARRAY AFTER THE RUN is the one function of the four arrays as the region finds them. -/
theorem final (c : Dev nD) :
    (dats m 0 c).arrAt 4 cfg0.N = arr (V m c main_v0) (V m c main_v1) (V m c main_v2) (V m c main_v3) :=
  (dats m 0 c).arrAt_eq_of_cover 4 _ (fun t _ => flushed_eq m c t) cover

end Cert.KernelIdeal.KerValue

end
-- ==== Proof.KernelRun.lean ====
/-
  The kernel program around its region. Before the region the host reshapes the four arguments to matrices — the samples
  `[1024, 1, 1, 512] → [1024, 512]`, the means and the precisions `[1, 1, 1, 256, 512] → [256, 512]`, the logits
  `[1, 1, 1, 256] → [1, 256]` — and after it reshapes the result `[1024, 256] → [1024, 1, 1, 256]`. A reshape keeps the
  row-major position, so each matrix entry is the argument's entry with the unit coordinates put back, and the program's
  result at `(b, 0, 0, k)` is the region's result at `(b, k)`.
-/
import proofs.«105026_j75874892251650_2_alg».proof.Proof.Gen.KernelIdeal.Frame
import proofs.«105026_j75874892251650_2_alg».proof.Proof.BlockToArray
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The samples as the region finds them: the first argument reshaped. -/
theorem V_v0 (c : Dev nD) : (V m c main_v0 : S1024x512.Idx → EReal)
    = shapeCast S1024x512 (m ((c : Thread nD τ).loc main_arg0)) shapeCasts_S1024x1x1x512_S1024x512 := by
  show StableHlo.after hostOps0 (fun b => m (c, b)) (Proc.devRef .tc main_v0) = _
  after_results
  rfl

/-- The means as the region finds them: the third argument reshaped. -/
theorem V_v1 (c : Dev nD) : (V m c main_v1 : S256x512.Idx → EReal)
    = shapeCast S256x512 (m ((c : Thread nD τ).loc main_arg2)) shapeCasts_S1x1x1x256x512_S256x512 := by
  show StableHlo.after hostOps0 (fun b => m (c, b)) (Proc.devRef .tc main_v1) = _
  after_results
  rfl

/-- The precisions as the region finds them: the fourth argument reshaped. -/
theorem V_v2 (c : Dev nD) : (V m c main_v2 : S256x512.Idx → EReal)
    = shapeCast S256x512 (m ((c : Thread nD τ).loc main_arg3)) shapeCasts_S1x1x1x256x512_S256x512 := by
  show StableHlo.after hostOps0 (fun b => m (c, b)) (Proc.devRef .tc main_v2) = _
  after_results
  rfl

/-- The logits as the region finds them: the second argument reshaped. -/
theorem V_v3 (c : Dev nD) : (V m c main_v3 : S1x256.Idx → EReal)
    = shapeCast S1x256 (m ((c : Thread nD τ).loc main_arg1)) shapeCasts_S1x1x1x256_S1x256 := by
  show StableHlo.after hostOps0 (fun b => m (c, b)) (Proc.devRef .tc main_v3) = _
  after_results
  rfl

theorem V_v0_at (c : Dev nD) (b : Fin 1024) (c' : Fin 512) :
    V m c main_v0 (ix2 b c') = m ((c : Thread nD τ).loc main_arg0) (ix4 b (0 : Fin 1) (0 : Fin 1) c') := by
  refine (congrFun (V_v0 m c) (ix2 b c')).trans ?_
  refine shapeCast_apply _ _ (ix2 b c') (ix4 b (0 : Fin 1) (0 : Fin 1) c') ?_
  rw [Shape.rowMajor_val_four, Shape.rowMajor_val_two]
  show ((b.val * 1 + 0) * 1 + 0) * 512 + c'.val = b.val * 512 + c'.val
  omega

theorem V_v1_at (c : Dev nD) (k : Fin 256) (c' : Fin 512) :
    V m c main_v1 (ix2 k c') = m ((c : Thread nD τ).loc main_arg2) (ix5 (0 : Fin 1) (0 : Fin 1) (0 : Fin 1) k c') := by
  refine (congrFun (V_v1 m c) (ix2 k c')).trans ?_
  refine shapeCast_apply _ _ (ix2 k c') (ix5 (0 : Fin 1) (0 : Fin 1) (0 : Fin 1) k c') ?_
  rw [Shape.rowMajor_val_five, Shape.rowMajor_val_two]
  show (((0 * 1 + 0) * 1 + 0) * 256 + k.val) * 512 + c'.val = k.val * 512 + c'.val
  omega

theorem V_v2_at (c : Dev nD) (k : Fin 256) (c' : Fin 512) :
    V m c main_v2 (ix2 k c') = m ((c : Thread nD τ).loc main_arg3) (ix5 (0 : Fin 1) (0 : Fin 1) (0 : Fin 1) k c') := by
  refine (congrFun (V_v2 m c) (ix2 k c')).trans ?_
  refine shapeCast_apply _ _ (ix2 k c') (ix5 (0 : Fin 1) (0 : Fin 1) (0 : Fin 1) k c') ?_
  rw [Shape.rowMajor_val_five, Shape.rowMajor_val_two]
  show (((0 * 1 + 0) * 1 + 0) * 256 + k.val) * 512 + c'.val = k.val * 512 + c'.val
  omega

theorem V_v3_at (c : Dev nD) (j : Fin 256) :
    V m c main_v3 (ix2 (0 : Fin 1) j) = m ((c : Thread nD τ).loc main_arg1) (ix4 (0 : Fin 1) (0 : Fin 1) (0 : Fin 1) j) := by
  refine (congrFun (V_v3 m c) (ix2 (0 : Fin 1) j)).trans ?_
  refine shapeCast_apply _ _ (ix2 (0 : Fin 1) j) (ix4 (0 : Fin 1) (0 : Fin 1) (0 : Fin 1) j) ?_
  rw [Shape.rowMajor_val_four, Shape.rowMajor_val_two]
  show ((0 * 1 + 0) * 1 + 0) * 256 + j.val = 0 * 256 + j.val
  omega

/-- The program's result at sample `b` and component `k`, from the four ARGUMENT arrays. -/
def resultAt (a0 : S1024x1x1x512.Idx → EReal) (a1 : S1x1x1x256.Idx → EReal) (a2 a3 : S1x1x1x256x512.Idx → EReal)
    (b : Fin 1024) (k : Fin 256) : EReal :=
  entry (fun c' => a0 (ix4 b (0 : Fin 1) (0 : Fin 1) c')) (fun c' => a2 (ix5 (0 : Fin 1) (0 : Fin 1) (0 : Fin 1) k c'))
    (fun c' => a3 (ix5 (0 : Fin 1) (0 : Fin 1) (0 : Fin 1) k c')) (fun j => a1 (ix4 (0 : Fin 1) (0 : Fin 1) (0 : Fin 1) j)) k

/-- The program's whole result as one function of the four argument arrays. -/
def result (a0 : S1024x1x1x512.Idx → EReal) (a1 : S1x1x1x256.Idx → EReal) (a2 a3 : S1x1x1x256x512.Idx → EReal) :
    S1024x1x1x256.Idx → EReal :=
  fun i => resultAt a0 a1 a2 a3 (i 0) (i 3)

/-- The region's result read at `(b, k)` in terms of the arguments. -/
theorem arr_at (c : Dev nD) (b : Fin 1024) (k : Fin 256) :
    arr (V m c main_v0) (V m c main_v1) (V m c main_v2) (V m c main_v3) (ix2 b k)
      = resultAt (m ((c : Thread nD τ).loc main_arg0)) (m ((c : Thread nD τ).loc main_arg1))
          (m ((c : Thread nD τ).loc main_arg2)) (m ((c : Thread nD τ).loc main_arg3)) b k := by
  show arrAt _ _ _ _ b k = _
  unfold arrAt resultAt
  exact entry_congr (funext fun c' => V_v0_at m c b c') (funext fun c' => V_v1_at m c k c') (funext fun c' => V_v2_at m c k c')
    (funext fun j => V_v3_at m c j) rfl

theorem tail_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v5)
      = result (m ((c : Thread nD τ).loc main_arg0)) (m ((c : Thread nD τ).loc main_arg1))
          (m ((c : Thread nD τ).loc main_arg2)) (m ((c : Thread nD τ).loc main_arg3)) := by
  refine ((h c).2 main_v5 (Pipeline.mem_restRefs_of main_v5 (by decide) (by decide))).trans ?_
  unfold Pipeline.afterTail₀
  show StableHlo.after hostOps1 _ (Proc.devRef .tc main_v5) = _
  after_results
  refine funext fun (i : S1024x1x1x256.Idx) => ?_
  obtain ⟨b, u, v, k, rfl⟩ : ∃ (b : Fin 1024) (u v : Fin 1) (k : Fin 256), i = ix4 b u v k := ⟨i 0, i 1, i 2, i 3, eq_ix4 i⟩
  have hA : (Pipeline.withArrays (cfgs 0).spec c (V0 m c) (fun w => (dats m 0 c).arrAt w (cfgs 0).N) (Proc.devRef .tc main_v4) : S1024x256.Idx → EReal)
      = arr (V m c main_v0) (V m c main_v1) (V m c main_v2) (V m c main_v3) :=
    (Pipeline.withArrays_arr spec0 launch0.win.arr_inj c _ _ 4).trans (final m c)
  have h1 : u.val < 1 := u.isLt
  have h2 : v.val < 1 := v.isLt
  show shapeCast S1024x1x1x256 (Pipeline.withArrays (cfgs 0).spec c (V0 m c) (fun w => (dats m 0 c).arrAt w (cfgs 0).N) (Proc.devRef .tc main_v4) : S1024x256.Idx → EReal)
    shapeCasts_S1024x256_S1024x1x1x256 (ix4 b u v k) = _
  refine (shapeCast_apply _ _ (ix4 b u v k) (ix2 b k) ?_).trans ((congrFun hA _).trans (arr_at m c b k))
  rw [Shape.rowMajor_val_two, Shape.rowMajor_val_four]
  show b.val * 256 + k.val = ((b.val * 1 + u.val) * 1 + v.val) * 256 + k.val
  omega

/-- THE KERNEL PROGRAM'S RUN: every weakly fair execution terminates with the result at `result` of the four
    argument arrays, and the arguments unchanged. -/
theorem run : θ_run defs (onTc (τ := τ) (main (F := Ideal))) ⟨m, fun _ => 0, ρ⟩ fun r => ∀ c : Dev nD,
      r.2.mem ((c.tc : Thread nD τ).loc main_v5)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨tail_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.RefValue.lean ====
/-
  What the reference program computes, read at one entry `(b, k)` of its result: the squared difference of the
  sample `b` and the mean of component `k`, weighted by the squared precision and summed over the channels, times
  the half factor; plus the sum of the logarithms of component `k`'s precisions and the normalisation constant; plus
  the log-softmax of the logits at `k` (the logit less the largest logit, less the logarithm of the sum of the
  exponentials of the logits so shifted).
-/
import proofs.«105026_j75874892251650_2_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- A vector of 256 entries is indexed by its one coordinate. -/
def idx256 : S256.Idx ≃ Fin 256 where
  toFun j := j 0
  invFun := ix1
  left_inv j := (eq_ix1 j).symm
  right_inv _ := rfl

/-- The flattened logits read at `j` are the logits at `(0, 0, 0, j)`. -/
theorem flat_logit (j : Fin 256) : idx_main_v8 (ix1 j) = ix4 (0 : Fin 1) (0 : Fin 1) (0 : Fin 1) j :=
  funext fun a => Fin.ext (by
    match a with
    | ⟨0, _⟩ => rfl
    | ⟨1, _⟩ => rfl
    | ⟨2, _⟩ => rfl
    | ⟨3, _⟩ => exact Nat.mod_eq_of_lt j.isLt)

/-- The largest logit as the reference takes it: the maximum, folded from the initial word, over the 256 logits. -/
theorem max_logit (x1 : S1x1x1x256.Idx → EReal) (j : S_.Idx) :
    val_main_call0_v0 (F := Ideal) x1 j
      = (Finset.univ : Finset (Fin 256)).fold max (Ideal.ofBits .f32 0xFF800000#32)
          (fun j => x1 (ix4 (0 : Fin 1) (0 : Fin 1) (0 : Fin 1) j)) := by
  unfold val_main_call0_v0
  rw [Host.reduce_eq_fold FloatOps.maximumf _ _ reducesTo_S256_S_d0 h_S_ j,
    Finset.filter_true_of_mem (fun i _ => funext fun a => a.elim0),
    ← Finset.image_univ_equiv idx256.symm, Finset.fold_image (fun a _ b _ e => idx256.symm.injective e)]
  refine congrArg (fun f => Finset.fold max (Ideal.ofBits .f32 0xFF800000#32) f (Finset.univ : Finset (Fin 256))) ?_
  funext k'
  show val_main_v8 (F := Ideal) x1 (ix1 k') = _
  rw [val_main_v8_apply, flat_logit]

/-- THE REFERENCE AT AN ENTRY. -/
theorem ref_at (x0 : S1024x1x1x512.Idx → EReal) (x1 : S1x1x1x256.Idx → EReal) (x2 x3 : S1x1x1x256x512.Idx → EReal)
    (b : Fin 1024) (k : Fin 256) :
    val_main_v21 (F := Ideal) x0 x1 x2 x3 (ix4 b (0 : Fin 1) (0 : Fin 1) k)
      = ((Ideal.ofBits .f32 0xBF000000#32 * (∑ c : Fin 512,
              ((x0 (ix4 b (0 : Fin 1) (0 : Fin 1) c) - x2 (ix5 (0 : Fin 1) (0 : Fin 1) (0 : Fin 1) k c))
                * (x0 (ix4 b (0 : Fin 1) (0 : Fin 1) c) - x2 (ix5 (0 : Fin 1) (0 : Fin 1) (0 : Fin 1) k c)))
              * (x3 (ix5 (0 : Fin 1) (0 : Fin 1) (0 : Fin 1) k c) * x3 (ix5 (0 : Fin 1) (0 : Fin 1) (0 : Fin 1) k c)))
            + ((∑ c : Fin 512, Ideal.log (x3 (ix5 (0 : Fin 1) (0 : Fin 1) (0 : Fin 1) k c))) + Ideal.ofBits .f32 0xC3EB3F8E#32))
          + ((x1 (ix4 (0 : Fin 1) (0 : Fin 1) (0 : Fin 1) k)
                - max (Ideal.ofBits .f32 0xFF800000#32) ((Finset.univ : Finset (Fin 256)).fold max (Ideal.ofBits .f32 0xFF800000#32)
                    (fun j => x1 (ix4 (0 : Fin 1) (0 : Fin 1) (0 : Fin 1) j))))
              - Ideal.log (∑ j : Fin 256, Ideal.exp (x1 (ix4 (0 : Fin 1) (0 : Fin 1) (0 : Fin 1) j)
                  - max (Ideal.ofBits .f32 0xFF800000#32) ((Finset.univ : Finset (Fin 256)).fold max (Ideal.ofBits .f32 0xFF800000#32)
                      (fun j => x1 (ix4 (0 : Fin 1) (0 : Fin 1) (0 : Fin 1) j))))))) := by
  have hx : ∀ c : Fin 512, idx_main_v0 (idx_main_v1 (idx_main_v15 (ix4 b (0 : Fin 1) (0 : Fin 1) k) c)) = ix4 b (0 : Fin 1) (0 : Fin 1) c :=
    fun c => funext fun a => Fin.ext (by match a with | ⟨0, _⟩ => rfl | ⟨1, _⟩ => rfl | ⟨2, _⟩ => rfl | ⟨3, _⟩ => rfl)
  have hmu : ∀ c : Fin 512, idx_main_v2 (idx_main_v15 (ix4 b (0 : Fin 1) (0 : Fin 1) k) c) = ix5 (0 : Fin 1) (0 : Fin 1) (0 : Fin 1) k c :=
    fun c => funext fun a => Fin.ext (by match a with | ⟨0, _⟩ => rfl | ⟨1, _⟩ => rfl | ⟨2, _⟩ => rfl | ⟨3, _⟩ => rfl | ⟨4, _⟩ => rfl)
  have hsg : ∀ c : Fin 512, idx_main_v13 (idx_main_v15 (ix4 b (0 : Fin 1) (0 : Fin 1) k) c) = ix5 (0 : Fin 1) (0 : Fin 1) (0 : Fin 1) k c :=
    fun c => funext fun a => Fin.ext (by match a with | ⟨0, _⟩ => rfl | ⟨1, _⟩ => rfl | ⟨2, _⟩ => rfl | ⟨3, _⟩ => rfl | ⟨4, _⟩ => rfl)
  have hlg : ∀ c : Fin 512, idx_main_v5 (idx_main_v18 (ix4 b (0 : Fin 1) (0 : Fin 1) k)) c = ix5 (0 : Fin 1) (0 : Fin 1) (0 : Fin 1) k c :=
    fun c => funext fun a => Fin.ext (by match a with | ⟨0, _⟩ => rfl | ⟨1, _⟩ => rfl | ⟨2, _⟩ => rfl | ⟨3, _⟩ => rfl | ⟨4, _⟩ => rfl)
  have hp : idx_main_v8 (idx_main_v10 (idx_main_v20 (ix4 b (0 : Fin 1) (0 : Fin 1) k))) = ix4 (0 : Fin 1) (0 : Fin 1) (0 : Fin 1) k :=
    funext fun a => Fin.ext (by
      match a with
      | ⟨0, _⟩ => rfl
      | ⟨1, _⟩ => rfl
      | ⟨2, _⟩ => rfl
      | ⟨3, _⟩ =>
        show (((0 * 1 + 0) * 1 + 0) * 256 + k.val) % 256 = k.val
        have := k.isLt
        omega)
  simp only [val_main_v21_apply, val_main_v19_apply, val_main_v17_apply, val_main_v16_apply, val_main_cst_2_apply,
    val_main_v15_apply, val_main_cst_1_apply, val_main_v14_apply, val_main_v11_apply, val_main_v13_apply, val_main_v12_apply,
    val_main_v3_apply, val_main_v1_apply, val_main_v0_apply, val_main_v2_apply,
    val_main_v18_apply, val_main_v7_apply, val_main_v5_apply, val_main_cst_apply, val_main_v4_apply, val_main_v6_apply, val_main_cst_0_apply,
    val_main_v20_apply, val_main_v10_apply, val_main_v9_apply, val_main_call0_v4_apply, val_main_v8_apply, val_main_call0_v3_apply,
    val_main_call0_v2_apply, val_main_call0_v1_apply, val_main_call0_cst_0_apply, val_main_call0_v9_apply, val_main_call0_v8_apply,
    val_main_call0_v7_apply, val_main_call0_v6_apply, val_main_call0_cst_1_apply, val_main_call0_v5_apply,
    max_logit, hx, hmu, hsg, hlg, hp,
    Ideal.ofBits_def, Ideal.addf_def, Ideal.subf_def, Ideal.mulf_def, Ideal.maximumf_def, Ideal.hostUnary_log_def, Ideal.hostUnary_exp_def,
    Ideal.ofBits_zero_f32, zero_add]
  have hs : ∀ i : Fin 256, idx256.symm i = ix1 i := fun _ => rfl
  rw [← Equiv.sum_comp idx256.symm]
  simp only [hs, flat_logit]

end Cert.ReferenceIdeal.RefValue

end
-- ==== Proof.MixtureLaw.lean ====
/-
  The algebra that joins the two programs, over any finite set of channels `ι` and of mixture components `κ`.

  One program sums the squared difference `(x - μ)² s²` over the channels; the other expands the square and sums
  `x² s²`, `x (-2 μ s²)` and `μ² s²` separately. Over the reals the three sums add up to the one
  (`quad_expand`), and that is where finiteness of `x`, `μ`, `s` is used: on the extended reals a product does
  not distribute over a sum at the infinities. The sum of the logarithms of `s` may be negative infinity; it is never
  opened, because regrouping a sum of extended reals is always valid.

  The log-normaliser: one program computes `p - (M + ℓ)`, the other `(p - M) - ℓ`, with `M` the largest logit.
  They agree when `M` is a real number (`sub_add_regroup`), and the maximum of finitely many real numbers, folded
  from negative infinity, is one (`fold_max_ne_bot`, `fold_max_ne_top`).
-/
import Mathlib.Data.EReal.Operations
import Mathlib.Algebra.BigOperators.Group.Finset.Basic
import Mathlib.Algebra.BigOperators.Ring.Finset
import Mathlib.Data.Finset.Fold
import Mathlib.Tactic.Ring

noncomputable section

open scoped BigOperators

namespace Cert.MixtureLaw

variable {ι κ : Type}

/-- A finite sum of real numbers, summed on the extended reals, is the real sum. -/
theorem coe_sum (s : Finset ι) (f : ι → ℝ) : (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

/-- The expanded quadratic form is the squared-difference form: for real `x`, `μ`, `s` and any real factor `h`,
    `h (Σ x² s² + Σ x (-2 μ s²)) + h Σ μ² s² = h Σ (x - μ)² s²`. -/
theorem quad_expand (h : ℝ) (s : Finset ι) (x μ sg : ι → ℝ) :
    (h : EReal) * ((∑ c ∈ s, ((x c : EReal) * x c) * ((sg c : EReal) * sg c))
        + ∑ c ∈ s, (x c : EReal) * ((((-2 : ℝ) : EReal) * μ c) * ((sg c : EReal) * sg c)))
      + (h : EReal) * (∑ c ∈ s, ((μ c : EReal) * μ c) * ((sg c : EReal) * sg c))
    = (h : EReal) * ∑ c ∈ s, (((x c : EReal) - μ c) * ((x c : EReal) - μ c)) * ((sg c : EReal) * sg c) := by
  simp only [← EReal.coe_mul, ← EReal.coe_sub, coe_sum, ← EReal.coe_add]
  refine congrArg _ ?_
  rw [← mul_add, ← Finset.sum_add_distrib, ← Finset.sum_add_distrib]
  refine congrArg _ (Finset.sum_congr rfl fun c _ => ?_)
  ring

/-- Subtracting a sum whose first term is a real number: `p - (M + ℓ) = (p - M) - ℓ`. -/
theorem sub_add_regroup (p M l : EReal) (hb : M ≠ ⊥) (ht : M ≠ ⊤) : p - (M + l) = (p - M) - l := by
  rw [sub_eq_add_neg, EReal.neg_add (Or.inl hb) (Or.inl ht), sub_eq_add_neg, sub_eq_add_neg, sub_eq_add_neg, add_assoc]

/-- The maximum of real numbers over a nonempty finite set, folded from any value, is not negative infinity. -/
theorem fold_max_ne_bot [Fintype κ] [Nonempty κ] (b : EReal) (P : κ → ℝ) :
    (Finset.univ : Finset κ).fold max b (fun j => ((P j : ℝ) : EReal)) ≠ ⊥ := by
  refine (ne_of_lt ?_).symm
  rw [Finset.lt_fold_max]
  exact Or.inr ⟨Classical.arbitrary κ, Finset.mem_univ _, EReal.bot_lt_coe _⟩

/-- The maximum of real numbers, folded from a value below positive infinity, is not positive infinity. -/
theorem fold_max_ne_top [Fintype κ] (b : EReal) (hb : b ≠ ⊤) (P : κ → ℝ) :
    (Finset.univ : Finset κ).fold max b (fun j => ((P j : ℝ) : EReal)) ≠ ⊤ := by
  refine ne_of_lt ?_
  rw [Finset.fold_max_lt]
  exact ⟨lt_top_iff_ne_top.2 hb, fun j _ => EReal.coe_lt_top _⟩

/-- Folding a maximum from `b` gives at least `b`, so taking the maximum with `b` once more changes nothing. -/
theorem max_fold_max [Fintype κ] (b : EReal) (f : κ → EReal) :
    max b ((Finset.univ : Finset κ).fold max b f) = (Finset.univ : Finset κ).fold max b f :=
  max_eq_right ((Finset.le_fold_max b).2 (Or.inl le_rfl))

/-- THE VALUE LAW. With `h` a real factor, `K0` any constant, `lg` and `ex` any two functions (the logarithm and
    the exponential are never opened), `x`, `μ`, `s` real over the channels and the logits `P` real over a nonempty
    set of components: the expanded program's value at component `k` is the squared-difference program's. -/
theorem value_law [Fintype ι] [Fintype κ] [Nonempty κ] (h : ℝ) (K0 b : EReal) (hb : b ≠ ⊤) (lg ex : EReal → EReal)
    (x μ sg : ι → ℝ) (P : κ → ℝ) (k : κ) :
    (h : EReal) * ((∑ c, ((x c : EReal) * x c) * ((sg c : EReal) * sg c))
          + ∑ c, (x c : EReal) * ((((-2 : ℝ) : EReal) * μ c) * ((sg c : EReal) * sg c)))
        + ((((h : EReal) * (∑ c, ((μ c : EReal) * μ c) * ((sg c : EReal) * sg c)) + ∑ c, lg (sg c)) + K0)
          + ((P k : EReal) - ((Finset.univ : Finset κ).fold max b (fun j => ((P j : ℝ) : EReal))
              + lg (∑ j, ex ((P j : EReal) - (Finset.univ : Finset κ).fold max b (fun j => ((P j : ℝ) : EReal)))))))
      = (((h : EReal) * (∑ c, (((x c : EReal) - μ c) * ((x c : EReal) - μ c)) * ((sg c : EReal) * sg c))
            + ((∑ c, lg (sg c)) + K0))
          + (((P k : EReal) - max b ((Finset.univ : Finset κ).fold max b (fun j => ((P j : ℝ) : EReal))))
              - lg (∑ j, ex ((P j : EReal) - max b ((Finset.univ : Finset κ).fold max b (fun j => ((P j : ℝ) : EReal))))))) := by
  rw [max_fold_max, sub_add_regroup _ _ _ (fold_max_ne_bot b P) (fold_max_ne_top b hb P), ← quad_expand h Finset.univ x μ sg]
  simp only [add_assoc]

end Cert.MixtureLaw

end
-- ==== Proof.Words.lean ====
/-
  The float words the two programs spell, as the extended reals they denote: minus two (the cross term's factor),
  one (the row of ones a channel sum is contracted with), minus one half (the factor of every quadratic form) and
  negative infinity (the value a maximum is folded from). Minus one half is only ever needed as SOME real number:
  both programs multiply by the same word.
-/
import Idealize.ShloMosaic.PureOps.Ideal

noncomputable section

namespace Cert.Words

open Idealize.ShloMosaic

/-- The word of `-2.0` denotes the real `-2`. -/
theorem ofBits_neg_two : Ideal.ofBits .f32 0xC0000000#32 = ((-2 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `-0.5` denotes a real number (the real `-1/2`). -/
theorem ofBits_neg_half : Ideal.ofBits .f32 0xBF000000#32 = ((-1 / 2 : ℝ) : EReal) := by
  simp [Ideal.ofBits, Ideal.ieee, -EReal.coe_mul]; norm_num

/-- The word of negative infinity denotes the bottom of the extended reals. -/
theorem ofBits_neg_inf : Ideal.ofBits .f32 0xFF800000#32 = ⊥ := by
  simp [Ideal.ofBits, Ideal.ieee]

end Cert.Words

end
-- ==== Proof.Bridge.lean ====
/-
  The two programs' values at an entry are one extended real. For a sample with real channels `x`, a component with
  real means `μ` and real precisions `s`, and real logits `P`, the kernel body's value (the expanded quadratic form,
  the bias, the logit less the log-sum-exp) is the reference's (the squared-difference form, the logarithms and the
  constant, the log-softmax): the words for one, minus two and minus one half are the real numbers they denote, the
  word for negative infinity is below positive infinity, and the rest is the value law.
-/
import proofs.«105026_j75874892251650_2_alg».proof.Proof.BodyValue
import proofs.«105026_j75874892251650_2_alg».proof.Proof.MixtureLaw
import proofs.«105026_j75874892251650_2_alg».proof.Proof.Words

noncomputable section

open scoped BigOperators

namespace Cert.Bridge

open Cert.KernelIdeal.KerValue Idealize.ShloMosaic

theorem neg_inf_ne_top : Ideal.ofBits .f32 0xFF800000#32 ≠ ⊤ := by
  rw [Cert.Words.ofBits_neg_inf]; exact bot_ne_top

/-- THE ENTRY: the kernel body's value for real data is the reference's formula. -/
theorem entry_eq (x μ sg : Fin 512 → ℝ) (P : Fin 256 → ℝ) (k : Fin 256) :
    entry (fun c => ((x c : ℝ) : EReal)) (fun c => ((μ c : ℝ) : EReal)) (fun c => ((sg c : ℝ) : EReal)) (fun j => ((P j : ℝ) : EReal)) k
      = ((Ideal.ofBits .f32 0xBF000000#32 * (∑ c : Fin 512,
              (((x c : ℝ) : EReal) - ((μ c : ℝ) : EReal)) * (((x c : ℝ) : EReal) - ((μ c : ℝ) : EReal))
                * (((sg c : ℝ) : EReal) * ((sg c : ℝ) : EReal)))
            + ((∑ c : Fin 512, Ideal.log ((sg c : ℝ) : EReal)) + Ideal.ofBits .f32 0xC3EB3F8E#32))
          + ((((P k : ℝ) : EReal)
                - max (Ideal.ofBits .f32 0xFF800000#32) ((Finset.univ : Finset (Fin 256)).fold max (Ideal.ofBits .f32 0xFF800000#32)
                    (fun j => ((P j : ℝ) : EReal))))
              - Ideal.log (∑ j : Fin 256, Ideal.exp (((P j : ℝ) : EReal)
                  - max (Ideal.ofBits .f32 0xFF800000#32) ((Finset.univ : Finset (Fin 256)).fold max (Ideal.ofBits .f32 0xFF800000#32)
                      (fun j => ((P j : ℝ) : EReal))))))) := by
  unfold entry biasEntry
  simp only [Cert.Words.ofBits_one, one_mul, Cert.Words.ofBits_neg_two, Cert.Words.ofBits_neg_half]
  exact Cert.MixtureLaw.value_law (-1 / 2) _ _ neg_inf_ne_top Ideal.log Ideal.exp x μ sg P k

end Cert.Bridge

end
-- ==== Proof.Meet.lean ====
/-
  The two programs meet. When every entry of the four argument arrays is a real number, the kernel program's result — as
  a function of the arguments — and the reference's are the same array: every index of the result is `(b, 0, 0, k)`, and
  there the kernel's entry for sample `b` and component `k` is the reference's formula for the same rows of the arguments.
-/
import proofs.«105026_j75874892251650_2_alg».proof.Proof.KernelRun
import proofs.«105026_j75874892251650_2_alg».proof.Proof.RefValue
import proofs.«105026_j75874892251650_2_alg».proof.Proof.Bridge

noncomputable section

open scoped BigOperators

namespace Cert.Meet

open Idealize.ShloMosaic Idealize.ShloMosaic.ValueIdx

theorem result_eq_ref (a0 : Cert.KernelIdeal.S1024x1x1x512.Idx → EReal) (a1 : Cert.KernelIdeal.S1x1x1x256.Idx → EReal)
    (a2 a3 : Cert.KernelIdeal.S1x1x1x256x512.Idx → EReal)
    (h0 : ∀ i, ∃ r : ℝ, a0 i = r) (h1 : ∀ i, ∃ r : ℝ, a1 i = r) (h2 : ∀ i, ∃ r : ℝ, a2 i = r) (h3 : ∀ i, ∃ r : ℝ, a3 i = r) :
    Cert.KernelIdeal.KerValue.result a0 a1 a2 a3 = Cert.ReferenceIdeal.Read.val_main_v21 (F := Ideal) a0 a1 a2 a3 := by
  choose r0 hr0 using h0
  choose r1 hr1 using h1
  choose r2 hr2 using h2
  choose r3 hr3 using h3
  funext i
  obtain ⟨b, k, rfl⟩ : ∃ (b : Fin 1024) (k : Fin 256), i = ix4 b (0 : Fin 1) (0 : Fin 1) k :=
    ⟨i 0, i 3, funext fun a => by
      match a with
      | ⟨0, _⟩ => rfl
      | ⟨1, _⟩ => exact Fin.ext (by have h : (i 1).val < 1 := (i 1).isLt; show (i 1).val = 0; omega)
      | ⟨2, _⟩ => exact Fin.ext (by have h : (i 2).val < 1 := (i 2).isLt; show (i 2).val = 0; omega)
      | ⟨3, _⟩ => rfl⟩
  rw [Cert.ReferenceIdeal.RefValue.ref_at]
  show Cert.KernelIdeal.KerValue.resultAt a0 a1 a2 a3 b k = _
  unfold Cert.KernelIdeal.KerValue.resultAt
  simp only [hr0, hr1, hr2, hr3]
  exact Cert.Bridge.entry_eq _ _ _ _ k

end Cert.Meet

end
-- ==== Proof.FiniteInputs.lean ====
/-
  The precondition read back: every entry of each of the four argument arrays is a real number. The precondition
  compares the absolute value of every entry with positive infinity and takes the conjunction over each array and
  over the four arrays; an extended real whose absolute value is below positive infinity is neither infinity.
-/
import proofs.«105026_j75874892251650_2_alg».proof.Pre_finite_inputs
import proofs.«105026_j75874892251650_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- The word of positive infinity denotes the top of the extended reals. -/
theorem ofBits_pos_inf : Ideal.ofBits .f32 0x7F800000#32 = ⊤ := by
  simp [Ideal.ofBits, Ideal.ieee]

/-- An extended real whose absolute value compares below positive infinity is a real number. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One array: if the conjunction over all its entries of "the absolute value is below positive infinity" holds, every
    entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
      (constantI S_ 1 1#1) hr hu ix0 = 1#1) (i : s.Idx) : ∃ r : ℝ, a i = r := by
  have e := Host.reduce_andi_all _ _ _ _ _ h i
  have e' : Ideal.cmp .olt (max (a i) (-(a i))) (Ideal.ofBits .f32 0x7F800000#32) = 1#1 := e
  rw [ofBits_pos_inf] at e'
  exact real_of_abs_lt _ e'

/-- THE PRECONDITION READ BACK: all four argument arrays hold real numbers. -/
theorem real_entries (a0 : FVec Ideal S1024x1x1x512 .f32) (a1 : FVec Ideal S1x1x1x256 .f32) (a2 a3 : FVec Ideal S1x1x1x256x512 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Pre_finite_inputs.Finite

end
-- ==== Proof.lean ====
/-
  The certificate of a Gaussian-mixture log-probability kernel against its reference, over the extended reals.

  Both programs compute, for a sample `b` (512 real channels `x`) and a component `k` (means `μ`, precisions `s`, a
  logit `p_k` among 256), the number
      -1/2 · Σ_c (x_c - μ_kc)² s_kc²  +  Σ_c log s_kc  +  const  +  log-softmax(p)_k.
  The reference computes it as written. The kernel expands the square: it forms `Σ x² s²` and `Σ x (-2 μ s²)` as two
  matrix products over the channels, `Σ μ² s²` and `Σ log s` as products with a row of ones, takes the log-softmax as
  the logit less the log-sum-exp, and works on blocks of 128 samples. A change of float format is the identity on the
  extended reals, a matrix product is its sum, and the two arrangements of the quadratic form agree because the
  inputs are finite (Proof/MixtureLaw.lean); the sum of logarithms may be infinite and is never opened.

  The three frames are the generated frame runs (the reference's: its generated run with the result dropped); the
  idealization rewrote nothing, so `preserves` holds trivially; `algebraic` puts the kernel program's run
  (Proof/KernelRun.lean) beside the reference's generated run, both ending at one function of the arguments
  (Proof/Meet.lean), the arguments real by the precondition (Proof/FiniteInputs.lean).
-/
import proofs.«105026_j75874892251650_2_alg».proof.Defs
import proofs.«105026_j75874892251650_2_alg».proof.Proof.Gen.Kernel
import proofs.«105026_j75874892251650_2_alg».proof.Proof.Gen.Kernel.Skeleton
import proofs.«105026_j75874892251650_2_alg».proof.Proof.Gen.Kernel.Launch
import proofs.«105026_j75874892251650_2_alg».proof.Proof.Gen.Kernel.Points
import proofs.«105026_j75874892251650_2_alg».proof.Proof.Gen.Kernel.Frame
import proofs.«105026_j75874892251650_2_alg».proof.Proof.Gen.KernelIdeal
import proofs.«105026_j75874892251650_2_alg».proof.Proof.Gen.KernelIdeal.Skeleton
import proofs.«105026_j75874892251650_2_alg».proof.Proof.Gen.KernelIdeal.Launch
import proofs.«105026_j75874892251650_2_alg».proof.Proof.Gen.KernelIdeal.Points
import proofs.«105026_j75874892251650_2_alg».proof.Proof.Gen.KernelIdeal.Frame
import proofs.«105026_j75874892251650_2_alg».proof.Proof.Gen.ReferenceIdeal
import proofs.«105026_j75874892251650_2_alg».proof.Proof.Gen.ReferenceIdeal.Run
import proofs.«105026_j75874892251650_2_alg».proof.Proof.Gen.ReferenceIdeal.Read
import proofs.«105026_j75874892251650_2_alg».proof.Proof.Gen.Pre_finite_inputs
import proofs.«105026_j75874892251650_2_alg».proof.Proof.KernelRun
import proofs.«105026_j75874892251650_2_alg».proof.Proof.Meet
import proofs.«105026_j75874892251650_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at one function of the arguments: the kernel program's run states its result as `result` of the
    four argument arrays, the reference's generated run states its own term of them, and for real arguments — which the
    precondition gives — the two are one array. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v21_eq]
  obtain ⟨f0, f1, f2, f3⟩ := Cert.Pre_finite_inputs.Finite.real_entries _ _ _ _ (hpre c)
  exact (Cert.Meet.result_eq_ref _ _ _ _ f0 f1 f2 f3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
